-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1280 : Shape := ⟨2, ![16384, 1280]⟩
abbrev S2x2048x2048 : Shape := ⟨3, ![2, 2048, 2048]⟩
abbrev S_ : Shape := ⟨0, ![]⟩

class Facts : Prop where
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn {F : FTy → Type} [FloatOps F] (main_arg0 : FVec F S16384x1280 .f32) (main_arg1 : FVec F S2x2048x2048 .f32) : IVec S_ 1 :=
  let main_v0 : FVec F S16384x1280 .f32 := Host.absf main_arg0
  let main_cst : FVec F S_ .f32 := constant S_ .f32 0x7F800000#32
  let main_v1 : FVec F S16384x1280 .f32 := broadcastInDim S16384x1280 ![] bcast_S_S16384x1280 main_cst
  let main_v2 : IVec S16384x1280 1 := cmpf .olt main_v0 main_v1
  let main_c : IVec S_ 1 := constantI S_ 1 1#1
  let main_v3 : IVec S_ 1 := (fun x v => Host.reduce IntOp.andi x v reducesTo_S16384x1280_S_d0_1 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  main_v8
-- ==== Kernel.lean ====
abbrev S16384x1280 : Shape := ⟨2, ![16384, 1280]⟩
abbrev S2x2048x2048 : Shape := ⟨3, ![2, 2048, 2048]⟩
abbrev S2x2048x1280 : Shape := ⟨3, ![2, 2048, 1280]⟩
abbrev S1280x2x2048 : Shape := ⟨3, ![1280, 2, 2048]⟩
abbrev S1280x4096 : Shape := ⟨2, ![1280, 4096]⟩
abbrev S16384x8192 : Shape := ⟨2, ![16384, 8192]⟩
abbrev S128x1280 : Shape := ⟨2, ![128, 1280]⟩
abbrev S128x8192 : Shape := ⟨2, ![128, 8192]⟩
abbrev S1280x1024 : Shape := ⟨2, ![1280, 1024]⟩
abbrev S128x1024 : Shape := ⟨2, ![128, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1280, .f32⟩
  | .hbm, ⟨1, _⟩ => ⟨S2x2048x2048, .f32⟩
  | .hbm, ⟨2, _⟩ => ⟨S2x2048x1280, .f32⟩
  | .hbm, ⟨3, _⟩ => ⟨S1280x2x2048, .f32⟩
  | .hbm, ⟨4, _⟩ => ⟨S1280x4096, .f32⟩
  | .hbm, ⟨5, _⟩ => ⟨S16384x8192, .f32⟩
  | .local _ .vmem, ⟨0, _⟩ => ⟨S128x1280, .f32⟩
  | .local _ .vmem, ⟨1, _⟩ => ⟨S128x1280, .f32⟩
  | .local _ .vmem, ⟨2, _⟩ => ⟨S1280x4096, .f32⟩
  | .local _ .vmem, ⟨3, _⟩ => ⟨S128x8192, .f32⟩
  | .local _ .vmem, ⟨4, _⟩ => ⟨S128x8192, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x2048x2048_S2x2048x1280_0_0_0 : S2x2048x2048.Slices ![0, 0, 0] S2x2048x1280
  transposes_S2x2048x1280_S1280x2x2048_2_0_1 : S2x2048x1280.Transposes [2, 0, 1] S1280x2x2048
  shapeCasts_S1280x2x2048_S1280x4096 : S1280x2x2048.ShapeCasts S1280x4096
  inb_S128x1280_S128x1280_0_0 : ∀ a, (![0, 0] : Fin 2 → Nat) a + S128x1280.size a ≤ S128x1280.size a
  h_S128x1280 : 0 < S128x1280.numel
  inb_S1280x4096_S1280x1024_0_0 : ∀ a, (![0, 0] : Fin 2 → Nat) a + S1280x1024.size a ≤ S1280x4096.size a
  h_S1280x1024 : 0 < S1280x1024.numel
  shapeCasts_S1280x1024_S1280x1024 : S1280x1024.ShapeCasts S1280x1024
  inb_S128x8192_S128x1024_0_0 : ∀ a, (![0, 0] : Fin 2 → Nat) a + S128x1024.size a ≤ S128x8192.size a
  h_S128x1024 : 0 < S128x1024.numel
  inb_S128x8192_S128x1024_0_4096 : ∀ a, (![0, 4096] : Fin 2 → Nat) a + S128x1024.size a ≤ S128x8192.size a
  inb_S1280x4096_S1280x1024_0_1024 : ∀ a, (![0, 1024] : Fin 2 → Nat) a + S1280x1024.size a ≤ S1280x4096.size a
  inb_S128x8192_S128x1024_0_1024 : ∀ a, (![0, 1024] : Fin 2 → Nat) a + S128x1024.size a ≤ S128x8192.size a
  inb_S128x8192_S128x1024_0_5120 : ∀ a, (![0, 5120] : Fin 2 → Nat) a + S128x1024.size a ≤ S128x8192.size a
  inb_S1280x4096_S1280x1024_0_2048 : ∀ a, (![0, 2048] : Fin 2 → Nat) a + S1280x1024.size a ≤ S1280x4096.size a
  inb_S128x8192_S128x1024_0_2048 : ∀ a, (![0, 2048] : Fin 2 → Nat) a + S128x1024.size a ≤ S128x8192.size a
  inb_S128x8192_S128x1024_0_6144 : ∀ a, (![0, 6144] : Fin 2 → Nat) a + S128x1024.size a ≤ S128x8192.size a
  inb_S1280x4096_S1280x1024_0_3072 : ∀ a, (![0, 3072] : Fin 2 → Nat) a + S1280x1024.size a ≤ S1280x4096.size a
  inb_S128x8192_S128x1024_0_3072 : ∀ a, (![0, 3072] : Fin 2 → Nat) a + S128x1024.size a ≤ S128x8192.size a
  inb_S128x8192_S128x1024_0_7168 : ∀ a, (![0, 7168] : Fin 2 → Nat) a + S128x1024.size a ≤ S128x8192.size a
  dot_S128x1280_S1280x1024_S128x1024_1_0_0_1_n_n_wf : DotDims.WF S128x1280 S1280x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1280.size a ≤ S16384x1280.size a
  hwx0_0 : ∀ i : grid0.Coords, EltTy.bits .f32 = 32 ∨ (Rect.block (s := S16384x1280) S128x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S1280x4096.size a
  hwx0_1 : ∀ i : grid0.Coords, EltTy.bits .f32 = 32 ∨ (Rect.block (s := S1280x4096) S1280x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S16384x8192.size a
  hwx0_2 : ∀ i : grid0.Coords, EltTy.bits .f32 = 32 ∨ (Rect.block (s := S16384x8192) S128x8192.size (cc0_transform_2 i) (hinb0_2 i)).WholeWords (EltTy.packing .f32)

variable [Facts₀]

def dot_S128x1280_S1280x1024_S128x1024_1_0_0_1_n_n : DotDims S128x1280 S1280x1024 S128x1024 where
  lhsContracting := [1]
  rhsContracting := [0]
  lhsNonContracting := [0]
  rhsNonContracting := [1]
  lhsBatch := []
  rhsBatch := []
  wf := dot_S128x1280_S1280x1024_S128x1024_1_0_0_1_n_n_wf

abbrev win0_0 : Pipeline.Window sig grid0 :=
  Pipeline.Window.ofSpec (Memref.whole main_arg0) S128x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1280 : Shape := ⟨2, ![16384, 1280]⟩
abbrev S2x2048x2048 : Shape := ⟨3, ![2, 2048, 2048]⟩
abbrev S_ : Shape := ⟨0, ![]⟩
abbrev S16384x2048 : Shape := ⟨2, ![16384, 2048]⟩
abbrev S16384x2x2048 : Shape := ⟨3, ![16384, 2, 2048]⟩
abbrev S16384x4096 : Shape := ⟨2, ![16384, 4096]⟩
abbrev S16384x8192 : Shape := ⟨2, ![16384, 8192]⟩

abbrev nBuf : Space → Nat
  | .hbm => 13
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S2x2048x2048, .f32⟩
  | .hbm, ⟨2, _⟩ => ⟨S_, .i32⟩
  | .hbm, ⟨3, _⟩ => ⟨S_, .f32⟩
  | .hbm, ⟨4, _⟩ => ⟨S16384x2048, .f32⟩
  | .hbm, ⟨5, _⟩ => ⟨S16384x2x2048, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  pads_S16384x1280_S16384x2048_000_07680 : S16384x1280.Pads (![0, 0] : Fin 2 → Nat) ![0, 768] ![0, 0] S16384x2048
  h_S_ : 0 < S_.numel
  shapeCasts_S16384x2x2048_S16384x4096 : S16384x2x2048.ShapeCasts S16384x4096
  concatenates_S16384x4096_S16384x4096_S16384x8192_d1 : Shape.Concatenates [S16384x4096, S16384x4096] S16384x8192 1
  bcast_S_S16384x8192 : S_.BroadcastsInDim S16384x8192 (![] : Fin 0 → Fin S16384x8192.rank)
  dot_S16384x2048_S2x2048x2048_S16384x2x2048_1_2_0_01_n_n_wf : DotDims.WF S16384x2048 S2x2048x2048 S16384x2x2048 [1] [2] [0] [0, 1] [] []

variable [Facts₀]

def dot_S16384x2048_S2x2048x2048_S16384x2x2048_1_2_0_01_n_n : DotDims S16384x2048 S2x2048x2048 S16384x2x2048 where
  lhsContracting := [1]
  rhsContracting := [2]
  lhsNonContracting := [0]
  rhsNonContracting := [0, 1]
  lhsBatch := []
  rhsBatch := []
  wf := dot_S16384x2048_S2x2048x2048_S16384x2x2048_1_2_0_01_n_n_wf

class Facts : Prop extends Facts₀ where

variable [Facts]
-- ==== Proof.Spec.lean ====
/-
  What both programs compute, as ONE function of the two argument arrays, entry by entry.

  For a batch row `b` and a feature column `c < 4096`, write `c = n * 2048 + k` with `n < 2`, `k < 2048`. The
  projection is the inner product of row `b` of `x` with row `k` of the `n`-th square matrix, over the first
  1280 coordinates only:

      proj x s b c = ∑ d < 1280, x[b, d] * s[c / 2048, c % 2048, d].

  The result has 8192 columns: column `c < 4096` holds `cos (proj b c) * 2⁻⁶`, column `4096 + c` holds
  `sin (proj b c) * 2⁻⁶`. The scale is the exact dyadic `1/64`, so multiplying by it and dividing by `64` are one
  operation on every extended real (`div_64`); and a sum over 2048 coordinates whose terms vanish from the 1280-th
  on is the sum of its first 1280 terms (`sum_first`), which is how zero-padding the rows of `x` compares with
  cutting the matrices' rows short.
-/
import Idealize.ShloMosaic.PureOps.Ideal
import Idealize.ShloMosaic.Lib.ValueIdx

noncomputable section

namespace Cert.Features

open Idealize.ShloMosaic Idealize.ShloMosaic.ValueIdx

/-- The batch of rows, `16384 × 1280`. -/
abbrev SX : Shape := ⟨2, ![16384, 1280]⟩
/-- The two square matrices, `2 × 2048 × 2048`. -/
abbrev SM : Shape := ⟨3, ![2, 2048, 2048]⟩
/-- The result, `16384 × 8192`. -/
abbrev SOut : Shape := ⟨2, ![16384, 8192]⟩

/-- The scale `2⁻⁶`, as the bit pattern the kernel spells. -/
abbrev scale : EReal := Ideal.ofBits .f32 0x3C800000#32

/-- The matrices' entry that feature column `c = n * 2048 + k` pairs with coordinate `d < 1280`: `s[n, k, d]`. -/
def wAt (s : SM.Idx → EReal) (d : Fin 1280) (c : Fin 4096) : EReal :=
  s (ix3 (⟨c.val / 2048, by omega⟩ : Fin 2) (⟨c.val % 2048, Nat.mod_lt _ (by norm_num)⟩ : Fin 2048)
    (⟨d.val, by omega⟩ : Fin 2048))

/-- The projection of row `b` on feature column `c`. -/
def proj (x : SX.Idx → EReal) (s : SM.Idx → EReal) (b : Fin 16384) (c : Fin 4096) : EReal :=
  ∑ d : Fin 1280, x (ix2 b d) * wAt s d c

/-- The result: cosines of the projections in the first 4096 columns, sines in the last 4096, all scaled by `2⁻⁶`. -/
def G (x : SX.Idx → EReal) (s : SM.Idx → EReal) : SOut.Idx → EReal := fun i =>
  if h : (i 1).val < 4096 then Ideal.cos (proj x s (i 0) ⟨(i 1).val, h⟩) * scale
  else Ideal.sin (proj x s (i 0) ⟨(i 1).val - 4096, by have := idx2_lt1 i; omega⟩) * scale

/-- In a cosine column. -/
theorem G_cos (x : SX.Idx → EReal) (s : SM.Idx → EReal) (b : Fin 16384) (q : Fin 8192) (h : q.val < 4096) :
    G x s (ix2 b q) = Ideal.cos (proj x s b ⟨q.val, h⟩) * scale := by
  unfold G
  rw [dif_pos (show ((ix2 b q : SOut.Idx) 1).val < 4096 from h)]

/-- In a sine column. -/
theorem G_sin (x : SX.Idx → EReal) (s : SM.Idx → EReal) (b : Fin 16384) (q : Fin 8192) (h : 4096 ≤ q.val) :
    G x s (ix2 b q) = Ideal.sin (proj x s b ⟨q.val - 4096, by have := q.isLt; omega⟩) * scale := by
  unfold G
  rw [dif_neg (show ¬ ((ix2 b q : SOut.Idx) 1).val < 4096 from Nat.not_lt.mpr h)]

/-! ## The two literals -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.015625` denotes the real `1/64`: a dyadic, so the pattern's value is the fraction itself. -/
theorem scale_eq : scale = ((1 / 64 : ℝ) : EReal) := by
  simp [scale, Ideal.ofBits, Ideal.ieee, -EReal.coe_mul]; norm_num

/-- Dividing by `64` is multiplying by `2⁻⁶`, on every extended real (the infinities included). -/
theorem div_64 (r : EReal) : Ideal.div r (Ideal.ofBits .f32 0x42800000#32) = r * scale := by
  rw [ofBits_64, scale_eq, Ideal.div_coe (by norm_num)]

/-! ## A sum whose tail vanishes -/

/-- A sum over 2048 coordinates whose terms are zero from the 1280-th on is the sum of its first 1280 terms. No
    finiteness is asked: the tail is a sum of zeros, and adding zero changes no extended real. -/
theorem sum_first (f : Fin 2048 → EReal) (hz : ∀ k : Fin 2048, 1280 ≤ k.val → f k = 0) :
    ∑ k : Fin 2048, f k = ∑ d : Fin 1280, f ⟨d.val, by omega⟩ := by
  have h := Fin.sum_univ_add (M := EReal) (a := 1280) (b := 768) (fun k => f ⟨k.val, k.isLt⟩)
  have e : ∑ k : Fin 2048, f k = ∑ k : Fin (1280 + 768), f ⟨k.val, k.isLt⟩ := rfl
  have tail : ∑ i : Fin 768, f ⟨(Fin.natAdd 1280 i).val, (Fin.natAdd 1280 i).isLt⟩ = 0 :=
    Finset.sum_eq_zero (fun i _ => hz _ (by show 1280 ≤ 1280 + i.val; omega))
  rw [e, h, tail, add_zero]
  rfl

end Cert.Features

end
-- ==== Proof.Piece.lean ====
/-
  The body's stored values, read at an entry.

  The body keeps the 128 × 1280 block of `x` and, four times, takes a 1280 × 1024 chunk `w` of the matrix of
  weights, multiplies (into a zero accumulator), and stores the cosine and the sine of the product, each scaled
  by `2⁻⁶`. At row `p` and column `q` of a chunk the product is the plain inner product

      ∑ k < 1280, v[p, k] * w[k, q],

  since a contraction onto the zero accumulator adds nothing, and the cosine and sine and the scaling act entry by
  entry. All eight stored values are one of two functions of `(v, w)`: `cosPiece` and `sinPiece`.
-/
import proofs.«135557_j56753697849678_2_alg».proof.Proof.Gen.KernelIdeal.Skeleton
import proofs.«135557_j56753697849678_2_alg».proof.Proof.Spec
import Idealize.ShloMosaic.Lib.Pipeline.Value
import Idealize.ShloMosaic.Lib.ValueIdx
import Idealize.ShloMosaic.PureOps.Ideal.Laws

noncomputable section

namespace Cert.Features.Kern

open Cert.KernelIdeal Cert.KernelIdeal.Gen Idealize.ShloMosaic Idealize.ShloMosaic.TcCoe Idealize.ShloMosaic.ValueIdx
open Cert.KernelIdeal.Facts₀

/-- The inner product of row `p` of the block of `x` with column `q` of a chunk of weights. -/
def dotAt (v : S128x1280.Idx → EReal) (w : S1280x1024.Idx → EReal) (p : Fin 128) (q : Fin 1024) : EReal :=
  ∑ k : Fin 1280, v (ix2 p k) * w (ix2 k q)

/-- A cosine piece: the scaled cosine of the inner products. -/
def cosPiece (v : S128x1280.Idx → EReal) (w : S1280x1024.Idx → EReal) : S128x1024.Idx → EReal :=
  fun j => Ideal.cos (dotAt v w (j 0) (j 1)) * scale

/-- A sine piece: the scaled sine of the inner products. -/
def sinPiece (v : S128x1280.Idx → EReal) (w : S1280x1024.Idx → EReal) : S128x1024.Idx → EReal :=
  fun j => Ideal.sin (dotAt v w (j 0) (j 1)) * scale

local notation "D" => dot_S128x1280_S1280x1024_S128x1024_1_0_0_1_n_n

/-! ## The contraction's index maps: the left operand is read at (row, k), the right at (k, column) -/

theorem lhs_0 (i : S128x1024.Idx) (q : (D).contr.Idx) : ((D).lhsIdx i q 0).val = (i 0).val := by
  unfold DotDims.lhsIdx
  rw [dif_neg (show ¬(0 : Fin S128x1280.rank) ∈ (D).lhsBatch by decide), dif_pos (show (0 : Fin S128x1280.rank) ∈ (D).lhsNonContracting by decide)]
  rfl
theorem lhs_1 (i : S128x1024.Idx) (q : (D).contr.Idx) : ((D).lhsIdx i q 1).val = (q ⟨0, by decide⟩).val :=
  (D).lhsIdx_val_of_single rfl i q
theorem rhs_0 (i : S128x1024.Idx) (q : (D).contr.Idx) : ((D).rhsIdx i q 0).val = (q ⟨0, by decide⟩).val :=
  (D).rhsIdx_val_of_single rfl i q
theorem rhs_1 (i : S128x1024.Idx) (q : (D).contr.Idx) : ((D).rhsIdx i q 1).val = (i 1).val := by
  unfold DotDims.rhsIdx
  rw [dif_neg (show ¬(1 : Fin S1280x1024.rank) ∈ (D).rhsBatch by decide), dif_pos (show (1 : Fin S1280x1024.rank) ∈ (D).rhsNonContracting by decide)]
  rfl

/-- The product into the zero accumulator, at an entry, is the inner product. -/
theorem matmul_zero_apply (v : FVec Ideal S128x1280 .f32) (w : FVec Ideal S1280x1024 .f32) (i : S128x1024.Idx) :
    matmul (F := Ideal) D (some .fp32) v w (constant S128x1024 .f32 0x00000000#32) i = dotAt v w (i 0) (i 1) := by
  show FloatOps.matmul D (some .fp32) v w (constant S128x1024 .f32 0x00000000#32) i = _
  rw [Ideal.matmul_constant_zero_apply, ← Equiv.sum_comp (ValueIdx.contrEquiv1 D 1280 rfl rfl).symm]
  unfold dotAt
  refine Finset.sum_congr rfl fun k _ => ?_
  have hk := ValueIdx.contrEquiv1_symm_val D 1280 rfl rfl k
  have el : (D).lhsIdx i ((ValueIdx.contrEquiv1 D 1280 rfl rfl).symm k) = ix2 (i 0) k := funext fun a => Fin.ext (by
    match a with
    | ⟨0, _⟩ => exact lhs_0 _ _
    | ⟨1, _⟩ => exact (lhs_1 _ _).trans hk)
  have er : (D).rhsIdx i ((ValueIdx.contrEquiv1 D 1280 rfl rfl).symm k) = ix2 k (i 1) := funext fun a => Fin.ext (by
    match a with
    | ⟨0, _⟩ => exact (rhs_0 _ _).trans hk
    | ⟨1, _⟩ => exact rhs_1 _ _)
  rw [el, er]
  rfl

/-! ## The stored values -/

/-- The product payload (the cast of the chunk to its own shape changes nothing). -/
theorem pay5_apply (v : Vec Ideal S128x1280 .f32) (w : Vec Ideal S1280x1024 .f32) (i : S128x1024.Idx) :
    k0_pay5 (F := Ideal) v w i = dotAt v w (i 0) (i 1) := by
  unfold k0_pay5
  rw [shapeCast_self]
  exact matmul_zero_apply v w i

theorem pay6_eq (v : Vec Ideal S128x1280 .f32) (w : Vec Ideal S1280x1024 .f32) : k0_pay6 (F := Ideal) v w = cosPiece v w := by
  funext i
  show Ideal.cos (k0_pay5 (F := Ideal) v w i) * scale = _
  rw [pay5_apply]
  rfl

theorem pay7_eq (v : Vec Ideal S128x1280 .f32) (w : Vec Ideal S1280x1024 .f32) : k0_pay7 (F := Ideal) v w = sinPiece v w := by
  funext i
  show Ideal.sin (k0_pay5 (F := Ideal) v w i) * scale = _
  rw [pay5_apply]
  rfl

/-- The other three cosine payloads and three sine payloads are the same two functions of their chunk. -/
theorem pay9_eq (v : Vec Ideal S128x1280 .f32) (w : Vec Ideal S1280x1024 .f32) : k0_pay9 (F := Ideal) v w = cosPiece v w :=
  (show k0_pay9 (F := Ideal) v w = k0_pay6 (F := Ideal) v w from rfl).trans (pay6_eq v w)
theorem pay12_eq (v : Vec Ideal S128x1280 .f32) (w : Vec Ideal S1280x1024 .f32) : k0_pay12 (F := Ideal) v w = cosPiece v w :=
  (show k0_pay12 (F := Ideal) v w = k0_pay6 (F := Ideal) v w from rfl).trans (pay6_eq v w)
theorem pay3_eq (v : Vec Ideal S128x1280 .f32) (w : Vec Ideal S1280x1024 .f32) : k0_pay3 (F := Ideal) v w = cosPiece v w :=
  (show k0_pay3 (F := Ideal) v w = k0_pay6 (F := Ideal) v w from rfl).trans (pay6_eq v w)
theorem pay10_eq (v : Vec Ideal S128x1280 .f32) (w : Vec Ideal S1280x1024 .f32) : k0_pay10 (F := Ideal) v w = sinPiece v w :=
  (show k0_pay10 (F := Ideal) v w = k0_pay7 (F := Ideal) v w from rfl).trans (pay7_eq v w)
theorem pay1_11_eq (v : Vec Ideal S128x1280 .f32) (w : Vec Ideal S1280x1024 .f32) : k0_pay1 (F := Ideal) (k0_pay11 (F := Ideal) v w) = sinPiece v w :=
  (show k0_pay1 (F := Ideal) (k0_pay11 (F := Ideal) v w) = k0_pay7 (F := Ideal) v w from rfl).trans (pay7_eq v w)
theorem pay4_eq (v : Vec Ideal S128x1280 .f32) (w : Vec Ideal S1280x1024 .f32) : k0_pay4 (F := Ideal) v w = sinPiece v w :=
  (show k0_pay4 (F := Ideal) v w = k0_pay7 (F := Ideal) v w from rfl).trans (pay7_eq v w)

end Cert.Features.Kern

end
-- ==== Proof.Block.lean ====
/-
  The 128 × 8192 block the body leaves, as ONE function of the block of `x` and the whole matrix of weights.

  The body stores eight 128 × 1024 pieces: the cosine piece of chunk `j` (columns `1024 j … 1024 j + 1023` of the
  weights) at columns `1024 j …`, and its sine piece at columns `4096 + 1024 j …`. A chunk's entry `(k, q)` is the
  matrix's entry `(k, 1024 j + q)`, so column `c < 4096` of the block holds the scaled cosine of the inner product of
  a row of `x` with column `c` of the weights, and column `4096 + c` its scaled sine: every piece is the restriction
  of `blockOut` to its rectangle, and the eight rectangles tile the block.
-/
import proofs.«135557_j56753697849678_2_alg».proof.Proof.Gen.KernelIdeal.Frame
import proofs.«135557_j56753697849678_2_alg».proof.Proof.Piece
import Idealize.ShloMosaic.Lib.Pipeline.Value
import Idealize.ShloMosaic.Lib.ValueIdx

set_option maxRecDepth 16384

noncomputable section

namespace Cert.Features.Kern

open Cert.KernelIdeal Cert.KernelIdeal.Gen Idealize.ShloMosaic Idealize.ShloMosaic.TcCoe Idealize.ShloMosaic.ValueIdx
open Cert.KernelIdeal.Facts₀

theorem zero_offsets : (![0, 0] : Fin 2 → Nat) = fun _ => 0 := funext fun a => by fin_cases a <;> rfl

/-- The inner product of row `p` of the block of `x` with column `c` of the whole matrix of weights. -/
def colDot (x0 : Vec Ideal S128x1280 .f32) (x1 : Vec Ideal S1280x4096 .f32) (p : Fin 128) (c : Fin 4096) : EReal :=
  ∑ k : Fin 1280, x0 (ix2 p k) * x1 (ix2 k c)

/-- The block's entry in row `p`, column `c`: the scaled cosine of the inner product with column `c` of the weights
    below 4096, the scaled sine of the inner product with column `c - 4096` from 4096 on. -/
def blockAt (x0 : Vec Ideal S128x1280 .f32) (x1 : Vec Ideal S1280x4096 .f32) (p : Fin 128) (c : Fin 8192) : EReal :=
  if h : c.val < 4096 then Ideal.cos (colDot x0 x1 p ⟨c.val, h⟩) * scale
  else Ideal.sin (colDot x0 x1 p ⟨c.val - 4096, by have := c.isLt; omega⟩) * scale

/-- The block after the body. -/
def blockOut (x0 : Vec Ideal S128x1280 .f32) (x1 : Vec Ideal S1280x4096 .f32) : Vec Ideal S128x8192 .f32 :=
  fun y => blockAt x0 x1 (y 0) (y 1)

/-- A chunk of 1024 columns from column `o`: its entry `(k, q)` is the matrix's entry `(k, o + q)`. -/
theorem ld_chunk (x1 : Vec Ideal S1280x4096 .f32) (o : Nat) (ho : o + 1024 ≤ 4096)
    (inb : ∀ a, (![0, o] : Fin 2 → Nat) a + S1280x1024.size a ≤ S1280x4096.size a) (k : Fin 1280) (q : Fin 1024) :
    View.ld x1 (Rect.unit (s := S1280x4096) ![0, o] S1280x1024.size inb) (ix2 k q) = x1 (ix2 k (⟨o + q.val, by omega⟩ : Fin 4096)) := by
  show x1 ((Rect.unit (s := S1280x4096) ![0, o] S1280x1024.size inb).emb (ix2 k q)) = _
  refine congrArg x1 (funext fun a => Fin.ext ?_)
  match a with
  | ⟨0, _⟩ => show 0 + 1 * k.val = k.val; omega
  | ⟨1, _⟩ => show o + 1 * q.val = o + q.val; omega

/-- The inner product against a chunk is the inner product against the matrix's column `o + q`. -/
theorem dotAt_chunk (x0 : Vec Ideal S128x1280 .f32) (x1 : Vec Ideal S1280x4096 .f32) (o : Nat) (ho : o + 1024 ≤ 4096)
    (inb : ∀ a, (![0, o] : Fin 2 → Nat) a + S1280x1024.size a ≤ S1280x4096.size a) (p : Fin 128) (q : Fin 1024) :
    dotAt (View.ld x0 r0_0) (View.ld x1 (Rect.unit (s := S1280x4096) ![0, o] S1280x1024.size inb)) p q
      = colDot x0 x1 p (⟨o + q.val, by omega⟩ : Fin 4096) := by
  unfold dotAt colDot
  refine Finset.sum_congr rfl fun k _ => ?_
  rw [View.ld_unit_zero (S := S128x1280) zero_offsets, ld_chunk x1 o ho inb k q]

/-- Where entry `(p, q)` of a piece stored from column `o` lands in the block: row `p`, column `o + q`. -/
theorem emb_piece (o : Nat) (ho : o + 1024 ≤ 8192)
    (inbO : ∀ a, (![0, o] : Fin 2 → Nat) a + S128x1024.size a ≤ S128x8192.size a) (p : Fin 128) (q : Fin 1024) :
    (Rect.unit (s := S128x8192) ![0, o] S128x1024.size inbO).emb (ix2 p q) = ix2 p (⟨o + q.val, by omega⟩ : Fin 8192) := by
  funext a
  match a with
  | ⟨0, _⟩ => exact Fin.ext (by show 0 + 1 * p.val = p.val; omega)
  | ⟨1, _⟩ => exact Fin.ext (by show o + 1 * q.val = o + q.val; omega)

/-- A cosine piece stored from column `o` is `blockOut` on its rectangle. -/
theorem cos_agrees (x0 : Vec Ideal S128x1280 .f32) (x1 : Vec Ideal S1280x4096 .f32) (o : Nat) (ho : o + 1024 ≤ 4096)
    (inbW : ∀ a, (![0, o] : Fin 2 → Nat) a + S1280x1024.size a ≤ S1280x4096.size a)
    (inbO : ∀ a, (![0, o] : Fin 2 → Nat) a + S128x1024.size a ≤ S128x8192.size a) (x : S128x1024.Idx) :
    cosPiece (View.ld x0 r0_0) (View.ld x1 (Rect.unit (s := S1280x4096) ![0, o] S1280x1024.size inbW)) x
      = blockOut x0 x1 ((Rect.unit (s := S128x8192) ![0, o] S128x1024.size inbO).emb x) := by
  obtain ⟨p, q, rfl⟩ : ∃ (p : Fin 128) (q : Fin 1024), x = ix2 p q := ⟨x 0, x 1, eq_ix2 x⟩
  have hq : q.val < 1024 := q.isLt
  rw [emb_piece o (by omega) inbO p q]
  show Ideal.cos (dotAt (View.ld x0 r0_0) (View.ld x1 (Rect.unit (s := S1280x4096) ![0, o] S1280x1024.size inbW)) p q) * scale
    = blockAt x0 x1 p (⟨o + q.val, by omega⟩ : Fin 8192)
  unfold blockAt
  rw [dif_pos (show ((⟨o + q.val, by omega⟩ : Fin 8192)).val < 4096 by show o + q.val < 4096; omega),
    dotAt_chunk x0 x1 o ho inbW p q]

/-- A sine piece of the chunk from column `o`, stored from column `4096 + o`, is `blockOut` on its rectangle. -/
theorem sin_agrees (x0 : Vec Ideal S128x1280 .f32) (x1 : Vec Ideal S1280x4096 .f32) (o o' : Nat) (ho : o + 1024 ≤ 4096) (ho' : o' = 4096 + o)
    (inbW : ∀ a, (![0, o] : Fin 2 → Nat) a + S1280x1024.size a ≤ S1280x4096.size a)
    (inbO : ∀ a, (![0, o'] : Fin 2 → Nat) a + S128x1024.size a ≤ S128x8192.size a) (x : S128x1024.Idx) :
    sinPiece (View.ld x0 r0_0) (View.ld x1 (Rect.unit (s := S1280x4096) ![0, o] S1280x1024.size inbW)) x
      = blockOut x0 x1 ((Rect.unit (s := S128x8192) ![0, o'] S128x1024.size inbO).emb x) := by
  obtain ⟨p, q, rfl⟩ : ∃ (p : Fin 128) (q : Fin 1024), x = ix2 p q := ⟨x 0, x 1, eq_ix2 x⟩
  have hq : q.val < 1024 := q.isLt
  rw [emb_piece o' (by omega) inbO p q]
  show Ideal.sin (dotAt (View.ld x0 r0_0) (View.ld x1 (Rect.unit (s := S1280x4096) ![0, o] S1280x1024.size inbW)) p q) * scale
    = blockAt x0 x1 p (⟨o' + q.val, by omega⟩ : Fin 8192)
  unfold blockAt
  rw [dif_neg (show ¬ ((⟨o' + q.val, by omega⟩ : Fin 8192)).val < 4096 by show ¬ o' + q.val < 4096; omega),
    dotAt_chunk x0 x1 o ho inbW p q]
  have ec : (⟨o + q.val, by omega⟩ : Fin 4096) = ⟨o' + q.val - 4096, by omega⟩ := Fin.ext (by show o + q.val = o' + q.val - 4096; omega)
  rw [ec]

/-- The body's block is `blockOut` of the input blocks: its eight pieces agree with it and tile the block. -/
theorem out_eq (x0 : Vec Ideal S128x1280 .f32) (x1 : Vec Ideal S1280x4096 .f32) :
    out0_2 (F := Ideal) x0 x1 = blockOut x0 x1 := by
  funext y
  unfold out0_2
  rw [pay4_eq, pay3_eq, pay1_11_eq, pay12_eq, pay10_eq, pay9_eq, pay7_eq, pay6_eq]
  refine View.canon_apply_of_pieces (Val := Elt Ideal) (blockOut x0 x1) _ ?_ y (cover0_2 _ _ _ _ _ _ _ _ y)
  intro p hp
  simp only [List.mem_cons, List.not_mem_nil, or_false] at hp
  rcases hp with rfl | rfl | rfl | rfl | rfl | rfl | rfl | rfl
  · show ∀ x : S128x1024.Idx, sinPiece (View.ld x0 r0_0) (View.ld x1 r0_10) x = blockOut x0 x1 (r0_12.emb x)
    exact sin_agrees x0 x1 3072 7168 (by norm_num) rfl _ _
  · show ∀ x : S128x1024.Idx, cosPiece (View.ld x0 r0_0) (View.ld x1 r0_10) x = blockOut x0 x1 (r0_11.emb x)
    exact cos_agrees x0 x1 3072 (by norm_num) _ _
  · show ∀ x : S128x1024.Idx, sinPiece (View.ld x0 r0_0) (View.ld x1 r0_7) x = blockOut x0 x1 (r0_9.emb x)
    exact sin_agrees x0 x1 2048 6144 (by norm_num) rfl _ _
  · show ∀ x : S128x1024.Idx, cosPiece (View.ld x0 r0_0) (View.ld x1 r0_7) x = blockOut x0 x1 (r0_8.emb x)
    exact cos_agrees x0 x1 2048 (by norm_num) _ _
  · show ∀ x : S128x1024.Idx, sinPiece (View.ld x0 r0_0) (View.ld x1 r0_4) x = blockOut x0 x1 (r0_6.emb x)
    exact sin_agrees x0 x1 1024 5120 (by norm_num) rfl _ _
  · show ∀ x : S128x1024.Idx, cosPiece (View.ld x0 r0_0) (View.ld x1 r0_4) x = blockOut x0 x1 (r0_5.emb x)
    exact cos_agrees x0 x1 1024 (by norm_num) _ _
  · show ∀ x : S128x1024.Idx, sinPiece (View.ld x0 r0_0) (View.ld x1 r0_1) x = blockOut x0 x1 (r0_3.emb x)
    exact sin_agrees x0 x1 0 4096 (by norm_num) rfl _ _
  · show ∀ x : S128x1024.Idx, cosPiece (View.ld x0 r0_0) (View.ld x1 r0_1) x = blockOut x0 x1 (r0_2.emb x)
    exact cos_agrees x0 x1 0 (by norm_num) _ _

end Cert.Features.Kern

end
-- ==== Proof.HostW.lean ====
/-
  The second operand of the kernel's contraction, entry by entry.

  Before its one region the program re-lays the array of the two square matrices `s` (`2 × 2048 × 2048`) by three
  layout operations: it keeps the first 1280 entries of the last axis (`2 × 2048 × 1280`), brings that axis to the
  front (`1280 × 2 × 2048`), and merges the last two axes (`1280 × 4096`). Each of the three reads, at every index of
  its result, ONE index of its operand, so the array the region finds has, at row `d < 1280` and column
  `q = n * 2048 + k` (`n < 2`, `k < 2048`), the entry `s[n, k, d]`: the merge reads `[d, n, k]` (same row-major
  position, `d * 4096 + q = (d * 2 + n) * 2048 + k`), the permutation reads `[n, k, d]` of the cut array, and the cut
  reads `[n, k, d]` of `s` (all offsets zero). That is `wAt s d q` of the specification.
-/
import proofs.«135557_j56753697849678_2_alg».proof.Proof.Gen.KernelIdeal.Frame
import proofs.«135557_j56753697849678_2_alg».proof.Proof.Spec
import Idealize.ShloMosaic.Lib.Pipeline.Value
import Idealize.ShloMosaic.Lib.ValueIdx
import Idealize.ShloMosaic.Lib.StableHlo.Run

noncomputable section

namespace Cert.Features.Kern

open Cert.KernelIdeal Cert.KernelIdeal.Gen Idealize.ShloMosaic Idealize.ShloMosaic.TcCoe Idealize.SL.Sem
open Idealize.ShloMosaic.StableHlo Idealize.ShloMosaic.ValueIdx

/-! ## The three layout operations, each read at an index (over any array of the literal shape) -/

/-- The merge of the last two axes: entry `[d, q]` of the `1280 × 4096` array is entry `[d, q / 2048, q % 2048]` of the
    `1280 × 2 × 2048` one — the two have the same row-major position. -/
theorem merge_apply (y : S1280x2x2048.Idx → EReal) (d : Fin 1280) (q : Fin 4096) :
    shapeCast S1280x4096 y shapeCasts_S1280x2x2048_S1280x4096 (ix2 d q)
      = y (ix3 d (⟨q.val / 2048, by omega⟩ : Fin 2) (⟨q.val % 2048, Nat.mod_lt _ (by norm_num)⟩ : Fin 2048)) := by
  refine shapeCast_apply y shapeCasts_S1280x2x2048_S1280x4096 (ix2 d q) _ ?_
  rewrite [Shape.rowMajor_val_three, Shape.rowMajor_val_two]
  have hd : d.val < 1280 := d.isLt
  have hq : q.val < 4096 := q.isLt
  show (d.val * 2 + q.val / 2048) * 2048 + q.val % 2048 = d.val * 4096 + q.val
  omega

/-- The permutation that brings the last axis to the front: entry `[d, n, k]` of the `1280 × 2 × 2048` array is entry
    `[n, k, d]` of the `2 × 2048 × 1280` one. -/
theorem perm_apply (y : S2x2048x1280.Idx → EReal) (d : Fin 1280) (n : Fin 2) (k : Fin 2048) :
    transpose S1280x2x2048 [2, 0, 1] y transposes_S2x2048x1280_S1280x2x2048_2_0_1 (ix3 d n k) = y (ix3 n k d) := by
  refine transpose_apply [2, 0, 1] y transposes_S2x2048x1280_S1280x2x2048_2_0_1 (ix3 d n k) (ix3 n k d) fun b => ?_
  match b with
  | ⟨0, _⟩ => rfl
  | ⟨1, _⟩ => rfl
  | ⟨2, _⟩ => rfl

/-- The cut of the last axis to its first 1280 entries: entry `[n, k, d]` of the `2 × 2048 × 1280` array is entry
    `[n, k, d]` of the `2 × 2048 × 2048` one (every offset is zero). -/
theorem cut_apply (s : S2x2048x2048.Idx → EReal) (n : Fin 2) (k : Fin 2048) (d : Fin 1280) :
    extractStridedSlice S2x2048x1280 ![0, 0, 0] s slices_S2x2048x2048_S2x2048x1280_0_0_0 (ix3 n k d)
      = s (ix3 n k (⟨d.val, by omega⟩ : Fin 2048)) := by
  refine extractStridedSlice_apply ![0, 0, 0] s slices_S2x2048x2048_S2x2048x1280_0_0_0 (ix3 n k d) _ fun a => ?_
  match a with
  | ⟨0, _⟩ => show n.val = 0 + n.val; omega
  | ⟨1, _⟩ => show k.val = 0 + k.val; omega
  | ⟨2, _⟩ => show d.val = 0 + d.val; omega

/-- The three composed: entry `[d, q]` of the re-laid array is `s[q / 2048, q % 2048, d]`. -/
theorem relaid_apply (s : S2x2048x2048.Idx → EReal) (d : Fin 1280) (q : Fin 4096) :
    shapeCast S1280x4096 (transpose S1280x2x2048 [2, 0, 1]
        (extractStridedSlice S2x2048x1280 ![0, 0, 0] s slices_S2x2048x2048_S2x2048x1280_0_0_0)
        transposes_S2x2048x1280_S1280x2x2048_2_0_1) shapeCasts_S1280x2x2048_S1280x4096 (ix2 d q)
      = Cert.Features.wAt s d q := by
  rw [merge_apply, perm_apply, cut_apply]
  rfl

/-! ## The array the region finds -/

/-- The array the region's second window stages, as the region finds it, is the three operations' term of the matrices'
    array as launched. -/
theorem V_main_v2 (m : (ℓ : Loc nD τ sig) → Buf (Elt Ideal) ℓ) (c : Dev nD) :
    (V m c main_v2 : S1280x4096.Idx → EReal)
      = shapeCast S1280x4096 (transpose S1280x2x2048 [2, 0, 1]
          (extractStridedSlice S2x2048x1280 ![0, 0, 0] (m ((c : Thread nD τ).loc main_arg1)) slices_S2x2048x2048_S2x2048x1280_0_0_0)
          transposes_S2x2048x1280_S1280x2x2048_2_0_1) shapeCasts_S1280x2x2048_S1280x4096 := by
  dsimp only [Gen.V, Gen.hostOps0]
  after_results
  rfl

/-- THE SECOND OPERAND, entry by entry: row `d`, column `q` of the array the region finds is the matrices' entry that
    feature column `q` pairs with coordinate `d`. -/
theorem W_apply (m : (ℓ : Loc nD τ sig) → Buf (Elt Ideal) ℓ) (c : Dev nD) (d : Fin 1280) (q : Fin 4096) :
    (V m c main_v2 : S1280x4096.Idx → EReal) (ix2 d q) = Cert.Features.wAt (m ((c : Thread nD τ).loc main_arg1)) d q := by
  rw [V_main_v2]
  exact relaid_apply _ d q

end Cert.Features.Kern

end
-- ==== Proof.Cover.lean ====
/-
  The result's blocks tile the result.

  The grid has 128 points. At point `t` the first window holds rows `128 t … 128 t + 127` of the batch (all 1280
  columns), the second holds the whole `1280 × 4096` operand (block index `0` on both axes, at every point), and the
  third — the result's — holds rows `128 t … 128 t + 127` of the `16384 × 8192` result, all 8192 columns. So an index
  `[r, q]` of the result lies in the block of exactly the point `t = r / 128`, which is written back (every point's
  is): the 128 blocks cover the result.
-/
import proofs.«135557_j56753697849678_2_alg».proof.Proof.Gen.KernelIdeal.Frame
import Idealize.ShloMosaic.Lib.Pipeline.Value

noncomputable section

namespace Cert.Features.Kern

open Cert.KernelIdeal Cert.KernelIdeal.Gen Idealize.ShloMosaic Idealize.ShloMosaic.TcCoe Idealize.SL.Sem

/-- The windows' block indices at each point of the grid, decided over its 128 points: the batch's and the result's
    blocks move down one block of rows per point and span every column; the second operand's one block stays put. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the result is in point `t`'s block iff each coordinate is in the block's range on its axis. -/
theorem mem_blk (t : Fin cfg0.N) (i : S16384x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v3).slice (win0_2.rect t)).set ↔ _
  rw [View.set_slice_whole, Rect.mem_set_unit]
  exact Iff.rfl

/-- THE BLOCKS COVER THE RESULT: index `[r, q]` is in the block of the point `r / 128`, which is written back. -/
theorem cover (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  have hN : (i 0).val / 128 < cfg0.N := by show (i 0).val / 128 < 128; omega
  refine ⟨⟨(i 0).val / 128, hN⟩, flush0_2 _, ?_⟩
  obtain ⟨-, -, -, -, e0, e1⟩ := idx_facts ⟨(i 0).val / 128, hN⟩
  have q0 : win0_2.index ⟨(i 0).val / 128, hN⟩ (0 : Fin 2) = (i 0).val / 128 := e0
  rw [mem_blk]
  intro a
  match a with
  | ⟨0, _⟩ => show win0_2.index ⟨(i 0).val / 128, hN⟩ (0 : Fin 2) * 128 ≤ (i 0).val ∧ (i 0).val < win0_2.index ⟨(i 0).val / 128, hN⟩ (0 : Fin 2) * 128 + 128; omega
  | ⟨1, _⟩ => show win0_2.index ⟨(i 0).val / 128, hN⟩ (1 : Fin 2) * 8192 ≤ (i 1).val ∧ (i 1).val < win0_2.index ⟨(i 0).val / 128, hN⟩ (1 : Fin 2) * 8192 + 8192; omega

end Cert.Features.Kern

end
-- ==== Proof.Final.lean ====
/-
  From blocks to the array: after the run the kernel's result array is `G` of the two argument arrays.

  Grid point `t` (of 128) works on rows `128 t … 128 t + 127`: its block of `x` is those rows, its block of the
  weights is the whole 1280 × 4096 array — whose entry `(d, c)` is the matrices' entry `s[c / 2048, c % 2048, d]` —
  and it writes back the 128 × 8192 block of those rows. So the inner products the body forms at row `p` are the
  projections of row `128 t + p`, what point `t` writes back is block `t` of `G`, and the 128 blocks tile the
  16384 × 8192 result.
-/
import proofs.«135557_j56753697849678_2_alg».proof.Proof.Gen.KernelIdeal.Value
import proofs.«135557_j56753697849678_2_alg».proof.Proof.Block
import proofs.«135557_j56753697849678_2_alg».proof.Proof.HostW
import proofs.«135557_j56753697849678_2_alg».proof.Proof.Cover
import Idealize.ShloMosaic.Lib.Pipeline.Value
import Idealize.ShloMosaic.Lib.ValueIdx

set_option maxRecDepth 16384

noncomputable section

namespace Cert.Features.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row `p` of point `t`'s block of `x` is row `128 t + p` of `x` as launched. -/
theorem xblk_apply (c : Dev nD) (t : Fin cfg0.N) (p : Fin 128) (k : Fin 1280) :
    iblk m c 0 t (ix2 p k)
      = m ((c : Thread nD τ).loc main_arg0) (ix2 (⟨t.val * 128 + p.val, by have ht : t.val < 128 := t.isLt; have := p.isLt; omega⟩ : Fin 16384) k) := by
  obtain ⟨e0, e1, -, -, -, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 128 + 1 * p.val = t.val * 128 + p.val; omega
  | ⟨1, _⟩ => show win0_0.index t (1 : Fin 2) * 1280 + 1 * k.val = k.val; omega

/-- Every point's block of the weights is the whole array: its entry `(k, c)` is the matrices' entry that feature
    column `c` pairs with coordinate `k`. -/
theorem wblk_apply (c : Dev nD) (t : Fin cfg0.N) (k : Fin 1280) (cc : Fin 4096) :
    iblk m c 1 t (ix2 k cc) = wAt (m ((c : Thread nD τ).loc main_arg1)) k cc := by
  obtain ⟨-, -, e2, e3, -, -⟩ := idx_facts t
  show (V m c main_v2 : S1280x4096.Idx → EReal) (((cfg0.win 1).blk t).view.emb (ix2 k cc)) = _
  refine Eq.trans (congrArg (V m c main_v2 : S1280x4096.Idx → EReal) (funext fun a => Fin.ext ?_)) (W_apply m c k cc)
  match a with
  | ⟨0, _⟩ => show win0_1.index t (0 : Fin 2) * 1280 + 1 * k.val = k.val; omega
  | ⟨1, _⟩ => show win0_1.index t (1 : Fin 2) * 4096 + 1 * cc.val = cc.val; omega

/-- The inner products the body forms at point `t`, row `p`, are the projections of row `128 t + p`. -/
theorem colDot_blk (c : Dev nD) (t : Fin cfg0.N) (p : Fin 128) (cc : Fin 4096) :
    colDot (iblk m c 0 t) (iblk m c 1 t) p cc
      = proj (m ((c : Thread nD τ).loc main_arg0)) (m ((c : Thread nD τ).loc main_arg1))
          (⟨t.val * 128 + p.val, by have ht : t.val < 128 := t.isLt; have := p.isLt; omega⟩ : Fin 16384) cc := by
  unfold colDot proj
  exact Finset.sum_congr rfl fun k _ => congrArg₂ (· * ·) (xblk_apply m c t p k) (wblk_apply m c t k cc)

/-- Entry `(p, q)` of the block point `t` leaves is entry `(128 t + p, q)` of `G`. -/
theorem block_apply (c : Dev nD) (t : Fin cfg0.N) (p : Fin 128) (q : Fin 8192) :
    blockAt (iblk m c 0 t) (iblk m c 1 t) p q
      = G (m ((c : Thread nD τ).loc main_arg0)) (m ((c : Thread nD τ).loc main_arg1))
          (ix2 (⟨t.val * 128 + p.val, by have ht : t.val < 128 := t.isLt; have := p.isLt; omega⟩ : Fin 16384) q) := by
  unfold blockAt
  by_cases h : q.val < 4096
  · rw [dif_pos h, G_cos _ _ _ q h, colDot_blk]
  · rw [dif_neg h, G_sin _ _ _ q (Nat.not_lt.mp h), colDot_blk]

/-- WHAT POINT `t` WRITES BACK is block `t` of `G`. -/
theorem flushed_eq (c : Dev nD) (t : Fin cfg0.N) :
    (dats m 0 c).flushed 2 t
      = ((cfg0.win 2).blk t).view.read (Elt Ideal)
          (G (m ((c : Thread nD τ).loc main_arg0)) (m ((c : Thread nD τ).loc main_arg1))) := by
  rw [Cert.KernelIdeal.Value.flushed2, out_eq]
  obtain ⟨-, -, -, -, e4, e5⟩ := idx_facts t
  have ht : t.val < 128 := t.isLt
  funext j
  show blockAt (iblk m c 0 t) (iblk m c 1 t) (j 0) (j 1)
    = G (m ((c : Thread nD τ).loc main_arg0)) (m ((c : Thread nD τ).loc main_arg1)) (((cfg0.win 2).blk t).view.emb j)
  have hj0 : (j 0).val < 128 := (j 0).isLt
  have hj1 : (j 1).val < 8192 := (j 1).isLt
  refine (block_apply m c t ⟨(j 0).val, hj0⟩ ⟨(j 1).val, hj1⟩).trans (congrArg _ (funext fun a => Fin.ext ?_))
  match a with
  | ⟨0, _⟩ => show t.val * 128 + (j 0).val = win0_2.index t (0 : Fin 2) * 128 + 1 * (j 0).val; omega
  | ⟨1, _⟩ => show (j 1).val = win0_2.index t (1 : Fin 2) * 8192 + 1 * (j 1).val; omega

/-- THE ARRAY after the run is `G` of the argument arrays: every point writes back its block of `G`, and the blocks
    tile the array. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) cover

/-- The kernel's run: every weakly fair execution ends with the result array at `G` of the argument arrays, and the
    argument arrays unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Features.Kern

end
-- ==== Proof.LibPad2.lean ====
/-
  A matrix padded on the high side, read at an index.

  `jnp.pad(x, ((0, r), (0, c)))` of an `[a, b]` matrix is an `[a', b']` matrix that holds `x` on the rows `< a` and
  columns `< b` and the padding value everywhere else (`pad2_hi_apply`: no low padding, no interior padding).
-/
import Idealize.ShloMosaic.PureOps.ShapeOps
import Idealize.ShloMosaic.Lib.ValueIdx

noncomputable section

namespace Cert.Lib.Pad2

open Idealize.ShloMosaic Idealize.ShloMosaic.ValueIdx

variable {α : Type}

/-- A high-side pad of a matrix at `(p, q)`: the matrix entry inside the original extent, the padding value outside. -/
theorem pad2_hi_apply {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel) (p : Fin a') (q : Fin b') :
    pad ⟨2, ![a', b']⟩ ![0, 0] hi ![0, 0] x v h hu (ix2 p q)
      = if hpq : p.val < a ∧ q.val < b then x (ix2 ⟨p.val, hpq.1⟩ ⟨q.val, hpq.2⟩) else v (Shape.Idx.first hu) := by
  unfold pad
  by_cases hpq : p.val < a ∧ q.val < b
  · rw [dif_pos hpq, dif_pos]
    · refine congrArg x (funext fun d => Fin.ext ?_)
      match d with
      | ⟨0, _⟩ => show (p.val - 0) / (0 + 1) = p.val; simp
      | ⟨1, _⟩ => show (q.val - 0) / (0 + 1) = q.val; simp
    · intro d
      match d with
      | ⟨0, _⟩ =>
        show 0 ≤ p.val ∧ (p.val - 0) % (0 + 1) = 0 ∧ (p.val - 0) / (0 + 1) < a
        exact ⟨Nat.zero_le _, Nat.mod_one _, by simpa using hpq.1⟩
      | ⟨1, _⟩ =>
        show 0 ≤ q.val ∧ (q.val - 0) % (0 + 1) = 0 ∧ (q.val - 0) / (0 + 1) < b
        exact ⟨Nat.zero_le _, Nat.mod_one _, by simpa using hpq.2⟩
  · rw [dif_neg hpq, dif_neg]
    intro hall
    apply hpq
    have h0 : (p.val - 0) / (0 + 1) < a := (hall ⟨0, Nat.zero_lt_two⟩).2.2
    have h1 : (q.val - 0) / (0 + 1) < b := (hall ⟨1, Nat.one_lt_two⟩).2.2
    exact ⟨by simpa using h0, by simpa using h1⟩

end Cert.Lib.Pad2

end
-- ==== Proof.RefSide.lean ====
/-
  The reference program's result, entry by entry, is the function `G` of the two argument arrays.

  The reference pads each row of `x` with 768 zero columns, contracts the padded row with a row of one of the two
  square matrices over all 2048 coordinates, flattens the pair (matrix, row) to one feature column, takes the cosine
  and the sine, lays the sines after the cosines, and divides by 64. Because the padded coordinates of the row are
  zero, every product past the 1280-th coordinate vanishes, and the 2048-term contraction is the 1280-term one
  (`Cert.Features.sum_first`); and dividing by 64 is multiplying by `2⁻⁶` on every extended real
  (`Cert.Features.div_64`).
-/
import proofs.«135557_j56753697849678_2_alg».proof.Proof.Gen.ReferenceIdeal.Read
import proofs.«135557_j56753697849678_2_alg».proof.Proof.Spec
import proofs.«135557_j56753697849678_2_alg».proof.Proof.LibPad2
import Idealize.ShloMosaic.Lib.Pipeline.Value
import Idealize.ShloMosaic.Lib.ValueIdx
import Idealize.ShloMosaic.PureOps.Ideal.Laws

noncomputable section

namespace Cert.Features.Ref

open Cert.ReferenceIdeal Cert.ReferenceIdeal.Gen Cert.ReferenceIdeal.Read Idealize.ShloMosaic Idealize.ShloMosaic.ValueIdx

/-! ## The zero-padded rows -/

/-- The padding value is the integer `0` converted to a float: the real `0`. -/
theorem pad_value : val_main_call0_v0 (F := Ideal) (Shape.Idx.first h_S_) = 0 := by
  rw [val_main_call0_v0_apply, val_main_c_apply]
  show (((0#32 : BitVec 32).toInt : ℝ) : EReal) = 0
  simp

/-- The padded row `b` at coordinate `k`: the row's own entry below 1280, zero from there on. -/
theorem v0_apply (x0 : (⟨S16384x1280, .f32⟩ : BufTy).Contents (Elt Ideal)) (b : Fin 16384) (k : Fin 2048) :
    val_main_v0 (F := Ideal) x0 (ix2 b k) = if h : k.val < 1280 then x0 (ix2 b ⟨k.val, h⟩) else 0 := by
  have hp := Cert.Lib.Pad2.pad2_hi_apply (a := 16384) (b := 1280) (a' := 16384) (b' := 2048) ![0, 768] x0
    (val_main_call0_v0 (F := Ideal)) pads_S16384x1280_S16384x2048_000_07680 h_S_ b k
  unfold val_main_v0
  rw [hp]
  by_cases h : k.val < 1280
  · rw [dif_pos h, dif_pos ⟨b.isLt, h⟩]
  · rw [dif_neg h, dif_neg (fun hh => h hh.2), pad_value]

/-! ## The contraction's two index maps, at a flattened feature column -/

/-- Row `b`, feature column `c`: the left operand is read in row `b`. -/
theorem lidx_eq (b : Fin 16384) (c : Fin 4096) (k : Fin 2048) :
    lidx_main_v1 (idx_main_v2 (ix2 b c)) k = ix2 b k := by
  funext a
  match a with
  | ⟨0, _⟩ => exact Fin.ext (by show (b.val * 4096 + c.val) / 4096 = b.val; omega)
  | ⟨1, _⟩ => rfl

/-- Row `b`, feature column `c = n * 2048 + r`: the right operand is read in matrix `n`, row `r`. -/
theorem ridx_eq (b : Fin 16384) (c : Fin 4096) (k : Fin 2048) :
    ridx_main_v1 (idx_main_v2 (ix2 b c)) k
      = ix3 (⟨c.val / 2048, by omega⟩ : Fin 2) (⟨c.val % 2048, Nat.mod_lt _ (by norm_num)⟩ : Fin 2048) k := by
  funext a
  match a with
  | ⟨0, _⟩ => exact Fin.ext (by show (b.val * 4096 + c.val) / 2048 % 2 = c.val / 2048; omega)
  | ⟨1, _⟩ => exact Fin.ext (by show (b.val * 4096 + c.val) % 2048 = c.val % 2048; omega)
  | ⟨2, _⟩ => rfl

/-! ## The projection -/

/-- The flattened contraction at row `b`, feature column `c` is the projection over the first 1280 coordinates. -/
theorem v2_apply (x0 : (⟨S16384x1280, .f32⟩ : BufTy).Contents (Elt Ideal)) (x1 : (⟨S2x2048x2048, .f32⟩ : BufTy).Contents (Elt Ideal))
    (b : Fin 16384) (c : Fin 4096) :
    val_main_v2 (F := Ideal) x0 x1 (ix2 b c) = proj x0 x1 b c := by
  rw [val_main_v2_apply, val_main_v1_apply]
  have e : ∀ k : Fin 2048,
      val_main_v0 (F := Ideal) x0 (lidx_main_v1 (idx_main_v2 (ix2 b c)) k) * x1 (ridx_main_v1 (idx_main_v2 (ix2 b c)) k)
        = (if h : k.val < 1280 then x0 (ix2 b ⟨k.val, h⟩) else 0)
          * x1 (ix3 (⟨c.val / 2048, by omega⟩ : Fin 2) (⟨c.val % 2048, Nat.mod_lt _ (by norm_num)⟩ : Fin 2048) k) := by
    intro k
    rw [lidx_eq, ridx_eq, v0_apply]
  rw [Finset.sum_congr rfl (fun k _ => e k)]
  rw [sum_first _ (fun k hk => by rw [dif_neg (by omega), zero_mul])]
  unfold proj
  refine Finset.sum_congr rfl fun d _ => ?_
  rw [dif_pos (show (⟨d.val, by omega⟩ : Fin 2048).val < 1280 from d.isLt)]
  rfl

/-! ## The result -/

/-- The reference's result is `G` of the two argument arrays. -/
theorem ref_eq (x0 : (⟨S16384x1280, .f32⟩ : BufTy).Contents (Elt Ideal)) (x1 : (⟨S2x2048x2048, .f32⟩ : BufTy).Contents (Elt Ideal)) :
    Cert.ReferenceIdeal.Read.val_main_v7 (F := Ideal) x0 x1 = Cert.Features.G x0 x1 := by
  funext i
  obtain ⟨b, q, rfl⟩ : ∃ (b : Fin 16384) (q : Fin 8192), i = ix2 b q := ⟨i 0, i 1, eq_ix2 i⟩
  rw [val_main_v7_apply, val_main_v6_apply, val_main_cst_apply, Ideal.hostDivf_def, Ideal.ofBits_def, div_64]
  by_cases h : q.val < 4096
  · rw [G_cos x0 x1 b q h]
    congr 1
    unfold val_main_v5
    rw [concatenate_pair_apply_left (t := S16384x8192) (s₁ := S16384x4096) (s₂ := S16384x4096) (1 : Fin 2)
      (val_main_v3 (F := Ideal) x0 x1) (val_main_v4 (F := Ideal) x0 x1)
      concatenates_S16384x4096_S16384x4096_S16384x8192_d1 (ix2 b q) rfl
      (ix2 b (⟨q.val, h⟩ : Fin 4096)) (fun d => by match d with | ⟨0, _⟩ => rfl | ⟨1, _⟩ => rfl)]
    rw [val_main_v3_apply, Ideal.hostUnary_cos_def, v2_apply]
  · have h' : 4096 ≤ q.val := Nat.not_lt.mp h
    rw [G_sin x0 x1 b q h']
    congr 1
    unfold val_main_v5
    rw [concatenate_pair_apply_right (t := S16384x8192) (s₁ := S16384x4096) (s₂ := S16384x4096) (1 : Fin 2)
      (val_main_v3 (F := Ideal) x0 x1) (val_main_v4 (F := Ideal) x0 x1)
      concatenates_S16384x4096_S16384x4096_S16384x8192_d1 (ix2 b q) rfl rfl
      (ix2 b (⟨q.val - 4096, by have := q.isLt; omega⟩ : Fin 4096))
      (fun d hd => by match d with | ⟨0, _⟩ => rfl | ⟨1, _⟩ => exact absurd rfl hd)
      (by show q.val - 4096 + 4096 = q.val; omega)]
    rw [val_main_v4_apply, Ideal.hostUnary_sin_def, v2_apply]

end Cert.Features.Ref

end
-- ==== Proof.lean ====
/-
  Random trigonometric features of a batch of rows: the kernel and its reference compute ONE function.

  With `x` a batch of 16384 rows of 1280 coordinates and `s` two 2048 × 2048 matrices, let
  `proj b c = ∑ d < 1280, x[b, d] * s[c / 2048, c % 2048, d]` for a feature column `c < 4096`. Both programs end with the
  16384 × 8192 array whose row `b` holds `cos (proj b c) * 2⁻⁶` in column `c` and `sin (proj b c) * 2⁻⁶` in column
  `4096 + c` (`Cert.Features.G`, Proof/Spec.lean), read on the extended reals, where a float is an exact value and every
  operation the textbook one.

  The kernel cuts the matrices' rows to their first 1280 entries, lays them out as one 1280 × 4096 matrix of weights
  (Proof/HostW.lean), and at each of 128 grid points multiplies a block of 128 rows by four chunks of 1024 columns,
  storing the scaled cosines and sines (Proof/Piece.lean, Proof/Block.lean); the 128 blocks tile the result
  (Proof/Cover.lean, Proof/Final.lean). The reference instead pads every row with 768 zeros and contracts over all 2048
  coordinates: the padded products are `0 * s = 0`, which holds for every extended real, so the sum is the same; and it
  divides by `64` where the kernel multiplies by `2⁻⁶`, the same operation on every extended real, the scale being an
  exact power of two (Proof/RefSide.lean). No law used needs the inputs finite.

  The kernel's run and each frame are the generated ones (the value leg read block by block, the reference's run and
  its stages read at an index); the idealization rewrote no operation, so there is nothing to preserve.
-/
import proofs.«135557_j56753697849678_2_alg».proof.Defs
import proofs.«135557_j56753697849678_2_alg».proof.Proof.Gen.Kernel
import proofs.«135557_j56753697849678_2_alg».proof.Proof.Gen.Kernel.Skeleton
import proofs.«135557_j56753697849678_2_alg».proof.Proof.Gen.Kernel.Launch
import proofs.«135557_j56753697849678_2_alg».proof.Proof.Gen.Kernel.Points
import proofs.«135557_j56753697849678_2_alg».proof.Proof.Gen.Kernel.Frame
import proofs.«135557_j56753697849678_2_alg».proof.Proof.Gen.KernelIdeal
import proofs.«135557_j56753697849678_2_alg».proof.Proof.Gen.KernelIdeal.Skeleton
import proofs.«135557_j56753697849678_2_alg».proof.Proof.Gen.KernelIdeal.Launch
import proofs.«135557_j56753697849678_2_alg».proof.Proof.Gen.KernelIdeal.Points
import proofs.«135557_j56753697849678_2_alg».proof.Proof.Gen.KernelIdeal.Frame
import proofs.«135557_j56753697849678_2_alg».proof.Proof.Gen.ReferenceIdeal
import proofs.«135557_j56753697849678_2_alg».proof.Proof.Gen.Pre_finite_inputs
import proofs.«135557_j56753697849678_2_alg».proof.Proof.Gen.KernelIdeal.Value
import proofs.«135557_j56753697849678_2_alg».proof.Proof.Gen.ReferenceIdeal.Run
import proofs.«135557_j56753697849678_2_alg».proof.Proof.Gen.ReferenceIdeal.Read
import proofs.«135557_j56753697849678_2_alg».proof.Proof.Final
import proofs.«135557_j56753697849678_2_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on `x` and `s`, both programs end with the result array at `G x s`: the kernel block by
    block (`Cert.Features.Kern.run`), the reference stage by stage (`Cert.Features.Ref.ref_eq`). -/
theorem algebraic : Cert.algebraic_KernelIdeal_ReferenceIdeal := by
  intro m ρ m' ρ' _ hagree
  refine ⟨fun c => Cert.Features.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Features.Kern.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.Features.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
